-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x56x56 : Shape := ⟨4, ![32, 1024, 56, 56]⟩
abbrev S_ : Shape := ⟨0, ![]⟩

class Facts : Prop where
  bcast_S_S32x1024x56x56 : S_.BroadcastsInDim S32x1024x56x56 (![] : Fin 0 → Fin S32x1024x56x56.rank)
  reducesTo_S32x1024x56x56_S_d0_1_2_3 : S32x1024x56x56.ReducesTo [0, 1, 2, 3] S_
  h_S_ : 0 < S_.numel

variable [Facts]

def fn {F : FTy → Type} [FloatOps F] (main_arg0 : FVec F S32x1024x56x56 .f32) : IVec S_ 1 :=
  let main_v0 : FVec F S32x1024x56x56 .f32 := Host.absf main_arg0
  let main_cst : FVec F S_ .f32 := constant S_ .f32 0x7F800000#32
  let main_v1 : FVec F S32x1024x56x56 .f32 := broadcastInDim S32x1024x56x56 ![] bcast_S_S32x1024x56x56 main_cst
  let main_v2 : IVec S32x1024x56x56 1 := cmpf .olt main_v0 main_v1
  let main_c : IVec S_ 1 := constantI S_ 1 1#1
  let main_v3 : IVec S_ 1 := (fun x v => Host.reduce IntOp.andi x v reducesTo_S32x1024x56x56_S_d0_1_2_3 h_S_) main_v2 main_c
  main_v3
-- ==== Kernel.lean ====
abbrev S32x1024x56x56 : Shape := ⟨4, ![32, 1024, 56, 56]⟩
abbrev S32x256x56x56 : Shape := ⟨4, ![32, 256, 56, 56]⟩
abbrev S1x128x56x56 : Shape := ⟨4, ![1, 128, 56, 56]⟩

abbrev nBuf : Space → Nat
  | .hbm => 2
  | .vmem => 10
  | .smem => 0
  | _ => 0

abbrev bufTy : (tb : Table) → Fin (tcTables nBuf tb) → BufTy
  | .hbm, ⟨0, _⟩ => ⟨S32x1024x56x56, .f32⟩
  | .hbm, ⟨1, _⟩ => ⟨S32x256x56x56, .f32⟩
  | .local _ .vmem, ⟨0, _⟩ => ⟨S1x128x56x56, .f32⟩
  | .local _ .vmem, ⟨1, _⟩ => ⟨S1x128x56x56, .f32⟩
  | .local _ .vmem, ⟨2, _⟩ => ⟨S1x128x56x56, .f32⟩
  | .local _ .vmem, ⟨3, _⟩ => ⟨S1x128x56x56, .f32⟩
  | .local _ .vmem, ⟨4, _⟩ => ⟨S1x128x56x56, .f32⟩
  | .local _ .vmem, ⟨5, _⟩ => ⟨S1x128x56x56, .f32⟩
  | .local _ .vmem, ⟨6, _⟩ => ⟨S1x128x56x56, .f32⟩
  | .local _ .vmem, ⟨7, _⟩ => ⟨S1x128x56x56, .f32⟩
  | .local _ .vmem, ⟨8, _⟩ => ⟨S1x128x56x56, .f32⟩
  | .local _ .vmem, ⟨9, _⟩ => ⟨S1x128x56x56, .f32⟩
  | _, _ => ⟨S32x1024x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x56x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x56x56_S1x128x56x56_0_0_0_0 : ∀ a, (![0, 0, 0, 0] : Fin 4 → Nat) a + S1x128x56x56.size a ≤ S1x128x56x56.size a
  h_S1x128x56x56 : 0 < S1x128x56x56.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x56x56.size a ≤ S32x1024x56x56.size a
  hwx0_0 : ∀ i : grid0.Coords, EltTy.bits .f32 = 32 ∨ (Rect.block (s := S32x1024x56x56) S1x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x56x56.size a ≤ S32x1024x56x56.size a
  hwx0_1 : ∀ i : grid0.Coords, EltTy.bits .f32 = 32 ∨ (Rect.block (s := S32x1024x56x56) S1x128x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x56x56.size a ≤ S32x1024x56x56.size a
  hwx0_2 : ∀ i : grid0.Coords, EltTy.bits .f32 = 32 ∨ (Rect.block (s := S32x1024x56x56) S1x128x56x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x56x56.size a ≤ S32x1024x56x56.size a
  hwx0_3 : ∀ i : grid0.Coords, EltTy.bits .f32 = 32 ∨ (Rect.block (s := S32x1024x56x56) S1x128x56x56.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x56x56.size a ≤ S32x256x56x56.size a
  hwx0_4 : ∀ i : grid0.Coords, EltTy.bits .f32 = 32 ∨ (Rect.block (s := S32x256x56x56) S1x128x56x56.size (cc0_transform_4 i) (hinb0_4 i)).WholeWords (EltTy.packing .f32)

variable [Facts₀]

abbrev win0_0 : Pipeline.Window sig grid0 :=
  Pipeline.Window.ofSpec (Memref.whole main_arg0) S1x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x56x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x128x56x56.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x56x56.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x56x56 : Shape := ⟨4, ![32, 1024, 56, 56]⟩
abbrev S32x4x256x56x56 : Shape := ⟨5, ![32, 4, 256, 56, 56]⟩
abbrev S_ : Shape := ⟨0, ![]⟩
abbrev S32x256x56x56 : Shape := ⟨4, ![32, 256, 56, 56]⟩

abbrev nBuf : Space → Nat
  | .hbm => 4
  | .vmem => 0
  | .smem => 0
  | _ => 0

abbrev bufTy : (tb : Table) → Fin (tcTables nBuf tb) → BufTy
  | .hbm, ⟨0, _⟩ => ⟨S32x1024x56x56, .f32⟩
  | .hbm, ⟨1, _⟩ => ⟨S32x4x256x56x56, .f32⟩
  | .hbm, ⟨2, _⟩ => ⟨S_, .f32⟩
  | .hbm, ⟨3, _⟩ => ⟨S32x256x56x56, .f32⟩
  | _, _ => ⟨S32x1024x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S32x1024x56x56_S32x4x256x56x56 : S32x1024x56x56.ShapeCasts S32x4x256x56x56
  reducesTo_S32x4x256x56x56_S32x256x56x56_d1 : S32x4x256x56x56.ReducesTo [1] S32x256x56x56
  h_S_ : 0 < S_.numel

variable [Facts₀]

class Facts : Prop extends Facts₀ where

variable [Facts]
-- ==== Proof.PoolBodyBits.lean ====
/-
  The grouped maximum kernel as printed, at the word level: its run on the pipeline.

  The kernel is handed ONE array x : f32[32, 1024, 56, 56] through four input windows and writes one array
  of shape [32, 256, 56, 56]. The grid is 32 × 2; at the point (b, c) input window k (k = 0, 1, 2, 3) is the block
  of 128 channels starting at channel 128·(2k + c) of batch b, and the output window is the block of 128 channels
  starting at channel 128·c of batch b. Every block is 1 × 128 × 56 × 56 and the blocks tile their arrays. The body
  loads the four input blocks whole and stores, whole, max (max x₀ x₁) (max x₂ x₃).

  This module states what each window's staging buffer holds around the body at every grid point — an input's
  its block of x, the output's the body's value of the four blocks — and proves the body meets it: from the four
  input buffers at their blocks and the output buffer at anything, the body ends with the inputs as they were and the
  output at that value. The four input windows each hold a quarter of the one array's full share, which is all a
  window that only reads needs.
-/
import proofs.«176584_j7370163880483_2_alg».proof.Proof.Gen.Kernel.Launch
import proofs.«176584_j7370163880483_2_alg».proof.Proof.Gen.Kernel.Skeleton
import proofs.«176584_j7370163880483_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (nothing runs before the region). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether or not the block was fetched
    at that point (when it was not, the block index has not moved), for any proof data whose array is the launched one
    and whose body leaves the block in place. Stated window by window: that a block is never cut short is read off
    each window's own index map. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole block, as a rectangle of itself: the one rectangle the body loads and stores through. -/
abbrev whole : Rect S1x128x56x56 := Rect.unit (s := S1x128x56x56) ![0, 0, 0, 0] S1x128x56x56.size inb_S1x128x56x56_S1x128x56x56_0_0_0_0

/-- The output buffer after the body, from the four input blocks: its one store, of the body's value of the blocks. -/
def outBlk (x0 x1 x2 x3 : Vec F S1x128x56x56 .f32) : Vec F S1x128x56x56 .f32 :=
  View.canon [⟨whole, k0_pay1 (View.ld x0 whole) (View.ld x1 whole) (View.ld x2 whole) (View.ld x3 whole)⟩]

/-- The one store covers the buffer. -/
theorem cover_whole (p0 : Vec F S1x128x56x56 .f32) (y : S1x128x56x56.Idx) :
    ∃ pc ∈ ([⟨whole, p0⟩] : List (View.Piece (Elt F) S1x128x56x56 .f32)), y ∈ pc.1.set :=
  View.cover_of_tiled [⟨whole, p0⟩] S1x128x56x56.size (by rfl) y

/-! ## The body's triple -/

set_option maxHeartbeats 1000000 in
/-- The body on whole staging buffers, the inputs' at contents `x₀ … x₃` and the output's at anything, runs to the
    continuation holding the inputs' as they were and the output's at `outBlk x₀ x₁ x₂ x₃`. -/
theorem sound_kernel (c : Dev nD) (E : Set ℕ) (i : grid0.Coords)
    (a0 : Memref sig .tc .vmem S1x128x56x56 .f32) (h0 : a0.IsWhole) (a1 : Memref sig .tc .vmem S1x128x56x56 .f32) (h1 : a1.IsWhole)
    (a2 : Memref sig .tc .vmem S1x128x56x56 .f32) (h2 : a2.IsWhole) (a3 : Memref sig .tc .vmem S1x128x56x56 .f32) (h3 : a3.IsWhole)
    (a4 : Memref sig .tc .vmem S1x128x56x56 .f32) (h4 : a4.IsWhole)
    (x0 x1 x2 x3 : Vec F S1x128x56x56 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (outBlk x0 x1 x2 x3)) -∗ K ⟨⟩))
      ⊢ wp frame (wpE (defs₀ (F := F)) Variants.none c none) E (cc0__gmaxpool_kernel i a0 h0 a1 h1 a2 h2 a3 h3 a4 h4) K := by
  simp only [cc0__gmaxpool_kernel_eq_skeleton]; unfold cc0__gmaxpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_whole _)

end Cert.Kernel.Pool

end
-- ==== Proof.PoolRunBits.lean ====
/-
  The grouped maximum kernel as printed, at the word level: the pipeline's proof data, the launch, and what the run ends with.

  The proof data say, for every grid point, what each window's staging buffer holds after the body: an input
  window's its block of x (the body only reads it), the output window's the body's value of the four input blocks.
  The one array x is read through four windows, so its full share is dealt among them in quarters — halved, and each
  half halved again —, and the output array is held whole. With the body's triple at every point, the pipeline runs:
  every fair execution ends, nothing faults, and each window's array ends at what the library computes from the proof
  data — for an input window its launch contents (it is never written back), for the output window its launch contents
  overwritten, block by block, by what the body left at each point.
-/
import proofs.«176584_j7370163880483_2_alg».proof.Proof.PoolBodyBits

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The quarter of the full share each input window holds of the one array they all read. -/
def quarter : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare

/-- The proof data on core `c`: the arrays as launched; after the body at point `t` each input buffer at its block
    and the output buffer at the body's value of the four blocks; between points nothing but the core's other scoped
    buffers (there are none); nothing owed; the input windows at a quarter share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q := quarter
  owed _ := 0

theorem A_eq (c : Dev nD) (w : Fin cfg0.W) : (dats m 0 c).A w = V m c (Pipeline.arrRef spec0 w) := by
  dsimp only [dats]

theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; what lies between points
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The one array's share, dealt to its four windows -/

/-- The two buffers behind the five windows' arrays, each held whole, make the windows' arrays as the proof data hold
    them at entry: the argument array's full share is halved and each half halved again, one quarter to each input
    window (a window that only reads needs no more), and the result array goes whole to the output window. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)) := by
  unfold Pipeline.arrBufs
  exact bigSep_eq_bigSepL_of_eq [main_arg0, main_v0] (by decide) (by decide) _

theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨HA, HO⟩
  ihave HAs := (pointsTo_share (PosShare.mem_left_op_right fullShare)).1 $$ HA
  icases HAs with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]
  · rw [(arr_whole0 0).set_eq_univ]; iexact HLL
  isplitl [HLR]
  · rw [(arr_whole0 1).set_eq_univ]; iexact HLR
  isplitl [HRL]
  · rw [(arr_whole0 2).set_eq_univ]; iexact HRL
  isplitl [HRR]
  · rw [(arr_whole0 3).set_eq_univ]; iexact HRR
  · rw [(arr_whole0 4).set_eq_univ]; iexact HO

/-! ## The run -/

/-- Entering the region: nothing is carried between points but the core's other scoped buffers. -/
theorem inv_in (c : Dev nD) :
    iprop((BI.emp : sProp 𝕄) ∗ Pipeline.scopedRest (Ix := Unit) (Name := ℕ) (U := UR sig nD τ) (Lvl := ℕ) (Val := Elt F) spec0 c)
      ⊢ (dats m 0 c).Φ 0 := by
  rw [inv_eq]; iintro ⟨-, H⟩; iexact H

/-- Leaving it: they are handed back. -/
theorem inv_out (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) := by
  rw [inv_eq]; iintro H; isplitr
  · iempintro
  · iexact H

/-- From any memory with zero counters, every weakly fair execution of the program ends, nothing faulting, with each
    window's array at what the library computes from the proof data after the last point. -/
theorem run_arrays : θ_run defs (onTc (τ := τ) (main (F := F))) (s₀ m ρ)
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_dealt m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => by
      iintro H; isplitr
      · iempintro
      · iexact H)
    (hin := inv_in m) (hout := inv_out m)
    (QY := fun _ _ => True)
    (hY := fun c s' => by
      iintro ⟨-, -, HSI⟩; imodintro
      isplitr
      · ipureintro; trivial
      · iexact HSI)
    (hQ := fun s h c w => (h c).1 w)

/-- info: 'Cert.Kernel.Pool.run_arrays' depends on axioms: [propext, Classical.choice, Quot.sound] -/
#guard_msgs in #print axioms run_arrays

/-- The frame: the program runs to the end, faults nowhere, and its argument array ends as launched — it is only ever
    an input window's array, and an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_arrays m ρ)

end Cert.Kernel.Pool

end
-- ==== Proof.PoolBodyIdeal.lean ====
/-
  The grouped maximum kernel, idealized: its run on the pipeline.

  The kernel is handed ONE array x : f32[32, 1024, 56, 56] through four input windows and writes one array
  of shape [32, 256, 56, 56]. The grid is 32 × 2; at the point (b, c) input window k (k = 0, 1, 2, 3) is the block
  of 128 channels starting at channel 128·(2k + c) of batch b, and the output window is the block of 128 channels
  starting at channel 128·c of batch b. Every block is 1 × 128 × 56 × 56 and the blocks tile their arrays. The body
  loads the four input blocks whole and stores, whole, max (max x₀ x₁) (max x₂ x₃).

  This module states what each window's staging buffer holds around the body at every grid point — an input's
  its block of x, the output's the body's value of the four blocks — and proves the body meets it: from the four
  input buffers at their blocks and the output buffer at anything, the body ends with the inputs as they were and the
  output at that value. The four input windows each hold a quarter of the one array's full share, which is all a
  window that only reads needs.
-/
import proofs.«176584_j7370163880483_2_alg».proof.Proof.Gen.KernelIdeal.Launch
import proofs.«176584_j7370163880483_2_alg».proof.Proof.Gen.KernelIdeal.Skeleton
import proofs.«176584_j7370163880483_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (nothing runs before the region). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether or not the block was fetched
    at that point (when it was not, the block index has not moved), for any proof data whose array is the launched one
    and whose body leaves the block in place. Stated window by window: that a block is never cut short is read off
    each window's own index map. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole block, as a rectangle of itself: the one rectangle the body loads and stores through. -/
abbrev whole : Rect S1x128x56x56 := Rect.unit (s := S1x128x56x56) ![0, 0, 0, 0] S1x128x56x56.size inb_S1x128x56x56_S1x128x56x56_0_0_0_0

/-- The output buffer after the body, from the four input blocks: its one store, of the body's value of the blocks. -/
def outBlk (x0 x1 x2 x3 : Vec F S1x128x56x56 .f32) : Vec F S1x128x56x56 .f32 :=
  View.canon [⟨whole, k0_pay1 (View.ld x0 whole) (View.ld x1 whole) (View.ld x2 whole) (View.ld x3 whole)⟩]

/-- The one store covers the buffer. -/
theorem cover_whole (p0 : Vec F S1x128x56x56 .f32) (y : S1x128x56x56.Idx) :
    ∃ pc ∈ ([⟨whole, p0⟩] : List (View.Piece (Elt F) S1x128x56x56 .f32)), y ∈ pc.1.set :=
  View.cover_of_tiled [⟨whole, p0⟩] S1x128x56x56.size (by rfl) y

/-! ## The body's triple -/

set_option maxHeartbeats 1000000 in
/-- The body on whole staging buffers, the inputs' at contents `x₀ … x₃` and the output's at anything, runs to the
    continuation holding the inputs' as they were and the output's at `outBlk x₀ x₁ x₂ x₃`. -/
theorem sound_kernel (c : Dev nD) (E : Set ℕ) (i : grid0.Coords)
    (a0 : Memref sig .tc .vmem S1x128x56x56 .f32) (h0 : a0.IsWhole) (a1 : Memref sig .tc .vmem S1x128x56x56 .f32) (h1 : a1.IsWhole)
    (a2 : Memref sig .tc .vmem S1x128x56x56 .f32) (h2 : a2.IsWhole) (a3 : Memref sig .tc .vmem S1x128x56x56 .f32) (h3 : a3.IsWhole)
    (a4 : Memref sig .tc .vmem S1x128x56x56 .f32) (h4 : a4.IsWhole)
    (x0 x1 x2 x3 : Vec F S1x128x56x56 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (outBlk x0 x1 x2 x3)) -∗ K ⟨⟩))
      ⊢ wp frame (wpE (defs₀ (F := F)) Variants.none c none) E (cc0__gmaxpool_kernel i a0 h0 a1 h1 a2 h2 a3 h3 a4 h4) K := by
  simp only [cc0__gmaxpool_kernel_eq_skeleton]; unfold cc0__gmaxpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_whole _)

end Cert.KernelIdeal.Pool

end
-- ==== Proof.PoolRunIdeal.lean ====
/-
  The grouped maximum kernel, idealized: the pipeline's proof data, the launch, and what the run ends with.

  The proof data say, for every grid point, what each window's staging buffer holds after the body: an input
  window's its block of x (the body only reads it), the output window's the body's value of the four input blocks.
  The one array x is read through four windows, so its full share is dealt among them in quarters — halved, and each
  half halved again —, and the output array is held whole. With the body's triple at every point, the pipeline runs:
  every fair execution ends, nothing faults, and each window's array ends at what the library computes from the proof
  data — for an input window its launch contents (it is never written back), for the output window its launch contents
  overwritten, block by block, by what the body left at each point.
-/
import proofs.«176584_j7370163880483_2_alg».proof.Proof.PoolBodyIdeal

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The quarter of the full share each input window holds of the one array they all read. -/
def quarter : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare

/-- The proof data on core `c`: the arrays as launched; after the body at point `t` each input buffer at its block
    and the output buffer at the body's value of the four blocks; between points nothing but the core's other scoped
    buffers (there are none); nothing owed; the input windows at a quarter share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q := quarter
  owed _ := 0

theorem A_eq (c : Dev nD) (w : Fin cfg0.W) : (dats m 0 c).A w = V m c (Pipeline.arrRef spec0 w) := by
  dsimp only [dats]

theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; what lies between points
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The one array's share, dealt to its four windows -/

/-- The two buffers behind the five windows' arrays, each held whole, make the windows' arrays as the proof data hold
    them at entry: the argument array's full share is halved and each half halved again, one quarter to each input
    window (a window that only reads needs no more), and the result array goes whole to the output window. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)) := by
  unfold Pipeline.arrBufs
  exact bigSep_eq_bigSepL_of_eq [main_arg0, main_v0] (by decide) (by decide) _

theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨HA, HO⟩
  ihave HAs := (pointsTo_share (PosShare.mem_left_op_right fullShare)).1 $$ HA
  icases HAs with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]
  · rw [(arr_whole0 0).set_eq_univ]; iexact HLL
  isplitl [HLR]
  · rw [(arr_whole0 1).set_eq_univ]; iexact HLR
  isplitl [HRL]
  · rw [(arr_whole0 2).set_eq_univ]; iexact HRL
  isplitl [HRR]
  · rw [(arr_whole0 3).set_eq_univ]; iexact HRR
  · rw [(arr_whole0 4).set_eq_univ]; iexact HO

/-! ## The run -/

/-- Entering the region: nothing is carried between points but the core's other scoped buffers. -/
theorem inv_in (c : Dev nD) :
    iprop((BI.emp : sProp 𝕄) ∗ Pipeline.scopedRest (Ix := Unit) (Name := ℕ) (U := UR sig nD τ) (Lvl := ℕ) (Val := Elt F) spec0 c)
      ⊢ (dats m 0 c).Φ 0 := by
  rw [inv_eq]; iintro ⟨-, H⟩; iexact H

/-- Leaving it: they are handed back. -/
theorem inv_out (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) := by
  rw [inv_eq]; iintro H; isplitr
  · iempintro
  · iexact H

/-- From any memory with zero counters, every weakly fair execution of the program ends, nothing faulting, with each
    window's array at what the library computes from the proof data after the last point. -/
theorem run_arrays : θ_run defs (onTc (τ := τ) (main (F := F))) (s₀ m ρ)
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_dealt m)
    (X := fun _ => (BI.emp : sProp 𝕄)) (Y := fun _ => (BI.emp : sProp 𝕄))
    (Z := fun c => Pipeline.unscopedRest (Ix := Unit) (Name := ℕ) (U := UR sig nD τ) (Lvl := ℕ) spec0 c (V m c))
    (hX := fun c => by
      iintro H; isplitr
      · iempintro
      · iexact H)
    (hin := inv_in m) (hout := inv_out m)
    (QY := fun _ _ => True)
    (hY := fun c s' => by
      iintro ⟨-, -, HSI⟩; imodintro
      isplitr
      · ipureintro; trivial
      · iexact HSI)
    (hQ := fun s h c w => (h c).1 w)

/-- info: 'Cert.KernelIdeal.Pool.run_arrays' depends on axioms: [propext, Classical.choice, Quot.sound] -/
#guard_msgs in #print axioms run_arrays

/-- The frame: the program runs to the end, faults nowhere, and its argument array ends as launched — it is only ever
    an input window's array, and an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_arrays m ρ)

end Cert.KernelIdeal.Pool

end
-- ==== Proof.GroupMax.lean ====
/-
  The grouped maximum: the one function both programs compute.

  An array x : [32, 1024, 56, 56] is read as four groups of 256 channels stacked along the channel axis: channel j
  of group k (k = 0, 1, 2, 3; j < 256) is channel 256·k + j of x. The grouped maximum of x is the array
  [32, 256, 56, 56] whose entry (b, j, h, w) is the maximum over k of x (b, 256·k + j, h, w).

  It is written here as  max (max x₀ x₁) (max x₂ x₃)  of the four groups' entries, the way the kernel takes it. The
  reference takes it as a fold of the maximum over k = 0, 1, 2, 3 starting from −∞. On the extended reals the maximum
  is associative and commutative and −∞ is its identity, so the two agree (`fold_max_four`): nothing is asked of x,
  in particular not that its entries be finite.
-/
import Idealize.ShloMosaic.PureOps.Ideal
import Idealize.ShloMosaic.PureOps.Ideal.Laws
import Idealize.ShloMosaic.Lib.ValueIdx

noncomputable section

namespace Cert.GroupMax

open Idealize.ShloMosaic

/-- The argument's shape and the result's. -/
abbrev SX : Shape := ⟨4, ![32, 1024, 56, 56]⟩
abbrev SY : Shape := ⟨4, ![32, 256, 56, 56]⟩

/-- Channel `j` of group `k`: channel `256·k + j` of the argument. -/
def chan (k : Fin 4) (j : Fin 256) : Fin 1024 := ⟨256 * k.val + j.val, by have := k.isLt; have := j.isLt; omega⟩

theorem chan_val (k : Fin 4) (j : Fin 256) : (chan k j).val = 256 * k.val + j.val := rfl

/-- An index of the argument from its four coordinates. -/
def xIdx (b : Fin 32) (ch : Fin 1024) (h : Fin 56) (w : Fin 56) : SX.Idx := ValueIdx.ix4 b ch h w

/-- Where group `k`'s entry for the result index `i` sits in the argument: same batch, row and column, channel
    `256·k + i₁`. -/
def src (k : Fin 4) (i : SY.Idx) : SX.Idx := xIdx (i 0) (chan k (i 1)) (i 2) (i 3)

theorem src_val0 (k : Fin 4) (i : SY.Idx) : (src k i 0).val = (i 0).val := rfl
theorem src_val1 (k : Fin 4) (i : SY.Idx) : (src k i 1).val = 256 * k.val + (i 1).val := rfl
theorem src_val2 (k : Fin 4) (i : SY.Idx) : (src k i 2).val = (i 2).val := rfl
theorem src_val3 (k : Fin 4) (i : SY.Idx) : (src k i 3).val = (i 3).val := rfl

/-- The grouped maximum, entry by entry: the maximum of the four groups' entries, taken two and two. Stated for any
    float values; at the extended reals the operation is the maximum. -/
def gmax {F : FTy → Type} [FloatOps F] (x : SX.Idx → Elt F .f32) : SY.Idx → Elt F .f32 := fun i =>
  FloatOps.maximumf (FloatOps.maximumf (x (src 0 i)) (x (src 1 i))) (FloatOps.maximumf (x (src 2 i)) (x (src 3 i)))

/-- On the extended reals: the fold of the maximum over four terms from −∞ is the maximum of the four taken two and
    two. Only associativity of the maximum and that −∞ is its identity are used. -/
theorem fold_max_four (f : Fin 4 → EReal) :
    (Finset.univ : Finset (Fin 4)).fold max ⊥ f = max (max (f 0) (f 1)) (max (f 2) (f 3)) := by
  have hu : (Finset.univ : Finset (Fin 4)) = insert 0 (insert 1 (insert 2 {3})) := by decide
  rw [hu, Finset.fold_insert (by decide), Finset.fold_insert (by decide), Finset.fold_insert (by decide),
    Finset.fold_singleton, max_bot_right]
  exact (max_assoc _ _ _).symm

end Cert.GroupMax

end
-- ==== Proof.PoolValue.lean ====
/-
  The grouped maximum kernel, idealized: the array it leaves.

  At the grid point (b, c) the output window's block is batch b, channels 128·c … 128·c + 127, and input window k's
  block is batch b, channels 128·(2k + c) … : the same rows and columns, the channel moved up by 256·k. So the entry
  the body stores at the place (b, 128·c + j, h, w) of the result is the maximum, taken two and two, of x at
  (b, 256·k + 128·c + j, h, w) for k = 0, 1, 2, 3 — the grouped maximum of x at that place. Every place of the result
  lies in exactly the block of the point (b, ⌊channel / 128⌋), and every point writes its block back; so after the run
  the result array IS the grouped maximum of x, and x itself is as launched.
-/
import proofs.«176584_j7370163880483_2_alg».proof.Proof.PoolRunIdeal
import proofs.«176584_j7370163880483_2_alg».proof.Proof.GroupMax
import Idealize.ShloMosaic.Lib.Pipeline.Value

set_option maxRecDepth 16384

noncomputable section

namespace Cert.KernelIdeal.Pool

open Cert.KernelIdeal Cert.KernelIdeal.Gen Cert.GroupMax
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem origin_zero : (![0, 0, 0, 0] : Fin 4 → Nat) = fun _ => 0 := funext fun a => by fin_cases a <;> rfl

/-- The body's value of its four loaded blocks: their maximum, two and two, entry by entry. -/
theorem pay_eq (x0 x1 x2 x3 : Vec F S1x128x56x56 .f32) :
    k0_pay1 x0 x1 x2 x3 = maximumf (maximumf x0 x1) (maximumf x2 x3) := rfl

/-- The index maps over the grid: input window `k`'s block index is the output window's on the batch, row and column
    axes and `2k` more on the channel axis; the output's block index is (batch, 0 or 1, 0, 0). -/
theorem idx_facts : ∀ t : Fin cfg0.N,
    (win0_0.index t (0 : Fin 4) = win0_4.index t (0 : Fin 4) ∧ win0_0.index t (1 : Fin 4) = win0_4.index t (1 : Fin 4) + 0
      ∧ win0_0.index t (2 : Fin 4) = win0_4.index t (2 : Fin 4) ∧ win0_0.index t (3 : Fin 4) = win0_4.index t (3 : Fin 4))
    ∧ (win0_1.index t (0 : Fin 4) = win0_4.index t (0 : Fin 4) ∧ win0_1.index t (1 : Fin 4) = win0_4.index t (1 : Fin 4) + 2
      ∧ win0_1.index t (2 : Fin 4) = win0_4.index t (2 : Fin 4) ∧ win0_1.index t (3 : Fin 4) = win0_4.index t (3 : Fin 4))
    ∧ (win0_2.index t (0 : Fin 4) = win0_4.index t (0 : Fin 4) ∧ win0_2.index t (1 : Fin 4) = win0_4.index t (1 : Fin 4) + 4
      ∧ win0_2.index t (2 : Fin 4) = win0_4.index t (2 : Fin 4) ∧ win0_2.index t (3 : Fin 4) = win0_4.index t (3 : Fin 4))
    ∧ (win0_3.index t (0 : Fin 4) = win0_4.index t (0 : Fin 4) ∧ win0_3.index t (1 : Fin 4) = win0_4.index t (1 : Fin 4) + 6
      ∧ win0_3.index t (2 : Fin 4) = win0_4.index t (2 : Fin 4) ∧ win0_3.index t (3 : Fin 4) = win0_4.index t (3 : Fin 4))
    ∧ win0_4.index t (0 : Fin 4) ≤ 31 ∧ win0_4.index t (1 : Fin 4) ≤ 1
    ∧ win0_4.index t (2 : Fin 4) = 0 ∧ win0_4.index t (3 : Fin 4) = 0 :=
  (by decide +kernel : ∀ t : Fin grid0.N, _)

/-- Every (batch, half of the channels) is some point's output block. -/
theorem idx_onto : ∀ (q0 : Fin 32) (q1 : Fin 2), ∃ t : Fin cfg0.N, win0_4.index t = ![q0.val, q1.val, 0, 0] :=
  (by decide +kernel : ∀ (q0 : Fin 32) (q1 : Fin 2), ∃ t : Fin grid0.N, win0_4.index t = ![q0.val, q1.val, 0, 0])

/-- What point `t` writes back is block `t` of the grouped maximum of the argument array. -/
theorem flushed_eq (c : Dev nD) (t : Fin cfg0.N) :
    (dats m 0 c).flushed 4 t = ((cfg0.win 4).blk t).view.read (Elt F) (gmax (F := F) (V m c main_arg0)) := by
  show (cfg0.win 4).cut (grid0.coords t) ((dats m 0 c).after 4 t) = _
  rw [after_4]
  unfold outBlk
  rw [View.canon_unit_zero origin_zero]
  simp only [View.ld_unit_zero (S := S1x128x56x56) origin_zero]
  rw [pay_eq]
  obtain ⟨⟨a0, a1, a2, a3⟩, ⟨b0, b1, b2, b3⟩, ⟨c0, c1, c2, c3⟩, ⟨d0, d1, d2, d3⟩, o0, o1, o2, o3⟩ := idx_facts t
  funext j
  show FloatOps.maximumf
      (FloatOps.maximumf (V m c main_arg0 (((cfg0.win 0).blk t).view.emb j)) (V m c main_arg0 (((cfg0.win 1).blk t).view.emb j)))
      (FloatOps.maximumf (V m c main_arg0 (((cfg0.win 2).blk t).view.emb j)) (V m c main_arg0 (((cfg0.win 3).blk t).view.emb j)))
    = gmax (F := F) (V m c main_arg0) (((cfg0.win 4).blk t).view.emb j)
  have hj0 : (j 0).val < 1 := (j 0).isLt
  have hj1 : (j 1).val < 128 := (j 1).isLt
  have hj2 : (j 2).val < 56 := (j 2).isLt
  have hj3 : (j 3).val < 56 := (j 3).isLt
  have h0 : ((cfg0.win 0).blk t).view.emb j = src 0 (((cfg0.win 4).blk t).view.emb j) := by
    funext a; apply Fin.ext
    match a with
    | ⟨0, _⟩ => show win0_0.index t (0 : Fin 4) * 1 + 1 * (j 0).val = win0_4.index t (0 : Fin 4) * 1 + 1 * (j 0).val; omega
    | ⟨1, _⟩ => show win0_0.index t (1 : Fin 4) * 128 + 1 * (j 1).val = 256 * 0 + (win0_4.index t (1 : Fin 4) * 128 + 1 * (j 1).val); omega
    | ⟨2, _⟩ => show win0_0.index t (2 : Fin 4) * 56 + 1 * (j 2).val = win0_4.index t (2 : Fin 4) * 56 + 1 * (j 2).val; omega
    | ⟨3, _⟩ => show win0_0.index t (3 : Fin 4) * 56 + 1 * (j 3).val = win0_4.index t (3 : Fin 4) * 56 + 1 * (j 3).val; omega
  have h1 : ((cfg0.win 1).blk t).view.emb j = src 1 (((cfg0.win 4).blk t).view.emb j) := by
    funext a; apply Fin.ext
    match a with
    | ⟨0, _⟩ => show win0_1.index t (0 : Fin 4) * 1 + 1 * (j 0).val = win0_4.index t (0 : Fin 4) * 1 + 1 * (j 0).val; omega
    | ⟨1, _⟩ => show win0_1.index t (1 : Fin 4) * 128 + 1 * (j 1).val = 256 * 1 + (win0_4.index t (1 : Fin 4) * 128 + 1 * (j 1).val); omega
    | ⟨2, _⟩ => show win0_1.index t (2 : Fin 4) * 56 + 1 * (j 2).val = win0_4.index t (2 : Fin 4) * 56 + 1 * (j 2).val; omega
    | ⟨3, _⟩ => show win0_1.index t (3 : Fin 4) * 56 + 1 * (j 3).val = win0_4.index t (3 : Fin 4) * 56 + 1 * (j 3).val; omega
  have h2 : ((cfg0.win 2).blk t).view.emb j = src 2 (((cfg0.win 4).blk t).view.emb j) := by
    funext a; apply Fin.ext
    match a with
    | ⟨0, _⟩ => show win0_2.index t (0 : Fin 4) * 1 + 1 * (j 0).val = win0_4.index t (0 : Fin 4) * 1 + 1 * (j 0).val; omega
    | ⟨1, _⟩ => show win0_2.index t (1 : Fin 4) * 128 + 1 * (j 1).val = 256 * 2 + (win0_4.index t (1 : Fin 4) * 128 + 1 * (j 1).val); omega
    | ⟨2, _⟩ => show win0_2.index t (2 : Fin 4) * 56 + 1 * (j 2).val = win0_4.index t (2 : Fin 4) * 56 + 1 * (j 2).val; omega
    | ⟨3, _⟩ => show win0_2.index t (3 : Fin 4) * 56 + 1 * (j 3).val = win0_4.index t (3 : Fin 4) * 56 + 1 * (j 3).val; omega
  have h3 : ((cfg0.win 3).blk t).view.emb j = src 3 (((cfg0.win 4).blk t).view.emb j) := by
    funext a; apply Fin.ext
    match a with
    | ⟨0, _⟩ => show win0_3.index t (0 : Fin 4) * 1 + 1 * (j 0).val = win0_4.index t (0 : Fin 4) * 1 + 1 * (j 0).val; omega
    | ⟨1, _⟩ => show win0_3.index t (1 : Fin 4) * 128 + 1 * (j 1).val = 256 * 3 + (win0_4.index t (1 : Fin 4) * 128 + 1 * (j 1).val); omega
    | ⟨2, _⟩ => show win0_3.index t (2 : Fin 4) * 56 + 1 * (j 2).val = win0_4.index t (2 : Fin 4) * 56 + 1 * (j 2).val; omega
    | ⟨3, _⟩ => show win0_3.index t (3 : Fin 4) * 56 + 1 * (j 3).val = win0_4.index t (3 : Fin 4) * 56 + 1 * (j 3).val; omega
  unfold gmax
  rw [h0, h1, h2, h3]

/-- A place of the result is in point `t`'s block iff each coordinate is in the block's range on its axis. -/
theorem mem_blk (t : Fin cfg0.N) (i : S32x256x56x56.Idx) :
    i ∈ ((cfg0.win 4).blk t).view.set ↔ ∀ a : Fin 4, win0_4.index t a * S1x128x56x56.size a ≤ (i a).val
      ∧ (i a).val < win0_4.index t a * S1x128x56x56.size a + S1x128x56x56.size a := by
  show i ∈ ((View.whole main_v0).slice (win0_4.rect t)).set ↔ _
  rw [View.set_slice_whole, Rect.mem_set_unit]
  exact Iff.rfl

/-- Every place of the result is in the block of the point (its batch, its channel's half), which writes it back. -/
theorem covered (i : S32x256x56x56.Idx) :
    ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, ht⟩ := idx_onto ⟨(i 0).val, hi0⟩ ⟨(i 1).val / 128, by omega⟩
  have q0 : win0_4.index t (0 : Fin 4) = (i 0).val := congrFun ht 0
  have q1 : win0_4.index t (1 : Fin 4) = (i 1).val / 128 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 56 ≤ (i 2).val ∧ (i 2).val < win0_4.index t (2 : Fin 4) * 56 + 56; omega
  | ⟨3, _⟩ => show win0_4.index t (3 : Fin 4) * 56 ≤ (i 3).val ∧ (i 3).val < win0_4.index t (3 : Fin 4) * 56 + 56; omega

/-- The result array after the run: the grouped maximum of the argument array as launched. -/
theorem final (c : Dev nD) :
    (dats m 0 c).arrAt 4 cfg0.N = gmax (F := F) (m ((c : Thread nD τ).loc main_arg0)) :=
  (dats m 0 c).arrAt_eq_of_cover 4 (gmax (F := F) (V m c main_arg0)) (fun t _ => flushed_eq m c t) covered

/-- The run, read: every fair execution ends, nothing faulting, with the result array at the grouped maximum of the
    argument array and the argument array as launched. -/
theorem run_value : θ_run defs (onTc (τ := τ) (main (F := F))) ⟨m, fun _ => 0, ρ⟩ fun r => ∀ c : Dev nD,
      r.2.mem ((c.tc : Thread nD τ).loc main_v0) = gmax (F := F) (m ((c.tc : Thread nD τ).loc main_arg0))
      ∧ r.2.mem ((c.tc : Thread nD τ).loc main_arg0) = m ((c.tc : Thread nD τ).loc main_arg0) :=
  (θ_run defs _ _).mono (fun r h c => ⟨(h c 4).trans (final m c),
      (h c 0).trans (((dats m 0 c).arrAt_in 0 rfl _).trans (A_eq m c 0))⟩)
    (run_arrays m ρ)

end Cert.KernelIdeal.Pool

end
-- ==== Proof.RefValue.lean ====
/-
  The reference, read at the extended reals: its result is the grouped maximum of its argument.

  The reference reshapes x : [32, 1024, 56, 56] to [32, 4, 256, 56, 56] — row-major, so the entry (b, k, j, h, w) of the
  reshaped array is x (b, 256·k + j, h, w) — and reduces the group axis k with the maximum, starting from −∞. At the
  result index (b, j, h, w) that is the fold of the maximum from −∞ over k = 0, 1, 2, 3 of x (b, 256·k + j, h, w): the
  grouped maximum of x there, since the maximum is associative and −∞ is its identity.
-/
import proofs.«176584_j7370163880483_2_alg».proof.Proof.Gen.ReferenceIdeal.Read
import proofs.«176584_j7370163880483_2_alg».proof.Proof.GroupMax
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.GroupMax
open Idealize.ShloMosaic

/-- An index of the reshaped array from its five coordinates. -/
def gIdx (b : Fin 32) (k : Fin 4) (j : Fin 256) (h : Fin 56) (w : Fin 56) : S32x4x256x56x56.Idx := ValueIdx.ix5 b k j h w

/-- Dropping the group axis of [32, 4, 256, 56, 56] leaves [32, 256, 56, 56]. -/
theorem reduces : S32x4x256x56x56.Reduces [1] S32x256x56x56 := by decide

/-- The result index `j` with the group `k` put back on the group axis. -/
theorem lift_eq (j : S32x256x56x56.Idx) (k : Fin (S32x4x256x56x56.size 1)) :
    reduces.lift j k = gIdx (j 0) (⟨k.val, k.isLt⟩ : Fin 4) (j 1) (j 2) (j 3) := by
  funext c; apply Fin.ext
  fin_cases c <;> rfl

/-- Row-major, the reshaped array's entry (b, k, j, h, w) is the argument's entry (b, 256·k + j, h, w). -/
theorem reshape_src (j : S32x256x56x56.Idx) (k : Fin 4) :
    idx_main_v0 (gIdx (j 0) k (j 1) (j 2) (j 3)) = src k j := by
  have h0 : (j 0).val < 32 := (j 0).isLt
  have h1 : (j 1).val < 256 := (j 1).isLt
  have h2 : (j 2).val < 56 := (j 2).isLt
  have h3 : (j 3).val < 56 := (j 3).isLt
  have hk : k.val < 4 := k.isLt
  funext a; apply Fin.ext
  match a with
  | ⟨0, _⟩ =>
    show (((((j 0).val * 4 + k.val) * 256 + (j 1).val) * 56 + (j 2).val) * 56 + (j 3).val) / 3211264 = (j 0).val
    omega
  | ⟨1, _⟩ =>
    show (((((j 0).val * 4 + k.val) * 256 + (j 1).val) * 56 + (j 2).val) * 56 + (j 3).val) / 3136 % 1024 = 256 * k.val + (j 1).val
    omega
  | ⟨2, _⟩ =>
    show (((((j 0).val * 4 + k.val) * 256 + (j 1).val) * 56 + (j 2).val) * 56 + (j 3).val) / 56 % 56 = (j 2).val
    omega
  | ⟨3, _⟩ =>
    show (((((j 0).val * 4 + k.val) * 256 + (j 1).val) * 56 + (j 2).val) * 56 + (j 3).val) % 56 = (j 3).val
    omega

/-- The reduce's initial value is −∞. -/
theorem init_bot (i : S_.Idx) : val_main_cst (F := Ideal) i = (⊥ : EReal) := by
  rw [val_main_cst_apply]
  show Ideal.ofBits .f32 0xFF800000#32 = ⊥
  simp [Ideal.ofBits, Ideal.ieee]

/-- The reference's result, at the extended reals, is the grouped maximum of its argument. -/
theorem result_eq (x : (⟨S32x1024x56x56, .f32⟩ : BufTy).Contents (Elt Ideal)) :
    val_main_v1 (F := Ideal) x = gmax (F := Ideal) x := by
  funext j
  unfold val_main_v1
  refine (Host.reduce_eq_fold_single (FloatOps.maximumf (F := Ideal) (φ := .f32)) (val_main_v0 (F := Ideal) x)
    (val_main_cst (F := Ideal)) reducesTo_S32x4x256x56x56_S32x256x56x56_d1 reduces h_S_ j).trans ?_
  have hf : (val_main_v0 (F := Ideal) x ∘ reduces.lift j) = fun k : Fin 4 => x (src k j) := funext fun k => by
    show val_main_v0 (F := Ideal) x (reduces.lift j k) = _
    rw [lift_eq, val_main_v0_apply]
    exact congrArg x (reshape_src j ⟨k.val, k.isLt⟩)
  rw [hf, init_bot]
  exact fold_max_four (fun k : Fin 4 => x (src k j))

end Cert.ReferenceIdeal.RefValue

end
-- ==== Proof.lean ====
/-
  The grouped maximum: a kernel against its reference.

  The kernel takes x : f32[32, 1024, 56, 56], read as four groups of 256 channels stacked along the channel axis, and
  writes the array [32, 256, 56, 56] whose entry (b, j, h, w) is  max (max x₀ x₁) (max x₂ x₃)  of the four groups' entries
  xₖ = x (b, 256·k + j, h, w). It does so on a 32 × 2 grid, a block of 128 channels of one batch at a time, reading x through
  four windows that all lie on the one array. The reference reshapes x to [32, 4, 256, 56, 56] and reduces the group axis
  with the maximum from −∞.

  Frames. Each kernel program runs to the end, faults nowhere and leaves x as launched: x is only ever an input window's
  array (its full share dealt in quarters to the four windows), and an input window's array is never written back
  (Proof/PoolBodyBits, PoolRunBits for the program as printed; PoolBodyIdeal, PoolRunIdeal for the idealized one — the
  same text at the two readings of a float). The reference's frame is its run with the result forgotten.

  The idealization rewrote nothing, so there is nothing to preserve.

  Values, at the extended reals. The kernel's result array after the run is the grouped maximum of x (Proof/PoolValue:
  what each grid point writes back is its block of that function, and the blocks cover the result). The reference's
  result is the same function of x (Proof/RefValue: the reshape read at an index, the reduce as a fold over the group
  axis). The two forms agree because the maximum is associative and −∞ is its identity (Proof/GroupMax); no entry of x
  need be finite for that, so the precondition is never opened.
-/
import proofs.«176584_j7370163880483_2_alg».proof.Defs
import proofs.«176584_j7370163880483_2_alg».proof.Proof.Gen.Kernel
import proofs.«176584_j7370163880483_2_alg».proof.Proof.Gen.KernelIdeal
import proofs.«176584_j7370163880483_2_alg».proof.Proof.Gen.ReferenceIdeal
import proofs.«176584_j7370163880483_2_alg».proof.Proof.Gen.ReferenceIdeal.Run
import proofs.«176584_j7370163880483_2_alg».proof.Proof.Gen.ReferenceIdeal.Read
import proofs.«176584_j7370163880483_2_alg».proof.Proof.Gen.Pre_finite_inputs
import proofs.«176584_j7370163880483_2_alg».proof.Proof.PoolRunBits
import proofs.«176584_j7370163880483_2_alg».proof.Proof.PoolValue
import proofs.«176584_j7370163880483_2_alg».proof.Proof.RefValue
import Idealize.ShloMosaic.Adequacy
import Idealize.ShloMosaic.Init

noncomputable section

namespace Cert.Proof

open Idealize.ShloMosaic Idealize.SL.Sem

/-- The kernel as printed runs and leaves its argument array as launched. -/
theorem frame_kernel : Cert.frame_Kernel := fun m ρ _ => Cert.Kernel.Pool.frame (F := Bits) m ρ

/-- So does the idealized kernel. -/
theorem frame_ideal : Cert.frame_KernelIdeal := fun m ρ _ => Cert.KernelIdeal.Pool.frame (F := Ideal) m ρ

/-- The reference runs and leaves its argument array as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals, from memories that agree on x, the idealized kernel ends with its result array at the grouped
    maximum of x and so does the reference; both leave x as launched. -/
theorem algebraic : Cert.algebraic_KernelIdeal_ReferenceIdeal := by
  intro m ρ m' ρ' _ hagree
  refine ⟨fun c => Cert.GroupMax.gmax (F := Ideal) (m ((c.tc : Thread Cert.KernelIdeal.nD Cert.KernelIdeal.τ).loc Cert.KernelIdeal.main_arg0)),
    Cert.KernelIdeal.Pool.run_value (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
